-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S50000x128 .f32) (main_arg1 : IVec S800000 32) (main_arg2 : IVec S800000 32) (main_arg3 : FVec F S128x128 .f32) (main_arg4 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S5000x128 : Shape := ⟨2, ![5000, 128]⟩
abbrev S5000x1 : Shape := ⟨2, ![5000, 1]⟩
abbrev S1x128 : Shape := ⟨2, ![1, 128]⟩

abbrev nBuf : Space → Nat
  | .hbm => 28
  | .vmem => 8
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S50000x128, .bf16⟩
  | .hbm, ⟨6, _⟩ => ⟨S_, .i32⟩
  | .hbm, ⟨7, _⟩ => ⟨S800000, .i32⟩
  | .hbm, ⟨8, _⟩ => ⟨S800000, .i1⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S800000x1, .i32⟩
  | .hbm, ⟨14, _⟩ => ⟨S800000x128, .bf16⟩
  | .hbm, ⟨15, _⟩ => ⟨S800000x128, .f32⟩
  | .hbm, ⟨16, _⟩ => ⟨S_, .f32⟩
  | .hbm, ⟨17, _⟩ => ⟨S50000x128, .f32⟩
  | .hbm, ⟨18, _⟩ => ⟨S800000x1, .i32⟩
  | .hbm, ⟨19, _⟩ => ⟨S50000x128, .f32⟩
  | .hbm, ⟨20, _⟩ => ⟨S_, .f32⟩
  | .hbm, ⟨21, _⟩ => ⟨S800000, .f32⟩
  | .hbm, ⟨22, _⟩ => ⟨S_, .f32⟩
  | .hbm, ⟨23, _⟩ => ⟨S50000, .f32⟩
  | .hbm, ⟨24, _⟩ => ⟨S800000x1, .i32⟩
  | .hbm, ⟨25, _⟩ => ⟨S50000, .f32⟩
  | .hbm, ⟨26, _⟩ => ⟨S50000x1, .f32⟩
  | .hbm, ⟨27, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S128, .f32⟩
  | .local _ .vmem, ⟨6, _⟩ => ⟨S5000x128, .f32⟩
  | .local _ .vmem, ⟨7, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  shapeCasts_S50000_S50000x1 : S50000.ShapeCasts S50000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v11) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where
  halias0_4 : Pipeline.Aliased win0 0 4

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 34
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S_, .i32⟩
  | .hbm, ⟨6, _⟩ => ⟨S800000, .i32⟩
  | .hbm, ⟨7, _⟩ => ⟨S800000, .i1⟩
  | .hbm, ⟨8, _⟩ => ⟨S_, .i32⟩
  | .hbm, ⟨9, _⟩ => ⟨S800000, .i32⟩
  | .hbm, ⟨10, _⟩ => ⟨S800000, .i32⟩
  | .hbm, ⟨11, _⟩ => ⟨S800000, .i32⟩
  | .hbm, ⟨12, _⟩ => ⟨S800000x1, .i32⟩
  | .hbm, ⟨13, _⟩ => ⟨S800000x128, .f32⟩
  | .hbm, ⟨14, _⟩ => ⟨S_, .f32⟩
  | .hbm, ⟨15, _⟩ => ⟨S50000x128, .f32⟩
  | .hbm, ⟨16, _⟩ => ⟨S800000x1, .i32⟩
  | .hbm, ⟨17, _⟩ => ⟨S50000x128, .f32⟩
  | .hbm, ⟨18, _⟩ => ⟨S_, .f32⟩
  | .hbm, ⟨19, _⟩ => ⟨S800000, .f32⟩
  | .hbm, ⟨20, _⟩ => ⟨S_, .f32⟩
  | .hbm, ⟨21, _⟩ => ⟨S50000, .f32⟩
  | .hbm, ⟨22, _⟩ => ⟨S800000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S50000x128, .f32⟩
  | .hbm, ⟨29, _⟩ => ⟨S50000x128, .f32⟩
  | .hbm, ⟨30, _⟩ => ⟨S50000x128, .f32⟩
  | .hbm, ⟨31, _⟩ => ⟨S1x128, .f32⟩
  | .hbm, ⟨32, _⟩ => ⟨S50000x128, .f32⟩
  | .hbm, ⟨33, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LibKeepdims.lean ====
/-
  Two layout operations read at an index written by coordinates: the COLUMN forms a sum that keeps its reduced axis
  needs. A vector `[a]` cast to a column `[a, 1]` reads, at `(i, u)`, the vector at `i`; a column `[a, 1]` broadcast over
  `[a, b]` reads, at `(p, c)`, the column at `(p, 0)`. (The row forms, `[a] → [1, a]` and `[1, b] → [a, b]`, are in
  Lib/ValueLayout.lean; these are their transposes, proved the same way.) General: nothing here mentions a program.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to `[a, 1]` reads, at `(i, u)`, the operand at `i`, whatever the unit coordinate `u`: the row-major
    positions agree, `i · 1 + 0 = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- ONE COLUMN BROADCAST over many: an `[a, 1]` array broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.LibPlainMatmul.lean ====
/-
  A plain matrix product into a zero accumulator, read at an index written by coordinates.

  For dimension numbers that contract the left operand's columns against the right operand's rows — no batch axis,
  `[M, K] · [K, N] → [M, N]` — the product accumulated into the zero splat reads, at `(p, j)`,
  `Σ_k lhs (p, k) · rhs (k, j)` over the `K` values of the contracted coordinate: the accumulator contributes `0`, and
  the sum over the one-axis contraction index is re-indexed by that axis's coordinate. The dimension numbers enter only
  through four facts about where they send an output index and a contraction index (`hl0 … hr1`), which hold by
  unfolding for any record of this form. General: nothing here mentions a program.
-/
import Idealize.ShloMosaic.PureOps.Ideal.Laws
import Idealize.ShloMosaic.Lib.ValueIdx

noncomputable section

namespace Cert.LibPlainMatmul

open Idealize.ShloMosaic Idealize.ShloMosaic.ValueIdx

/-- `[M, K] · [K, N]` into the zero splat, at `(p, j)`, is `Σ_k lhs (p, k) · rhs (k, j)`. -/
theorem matmul_zero_at {M K N : ℕ} {φ₁ φ₂ : FTy}
    (D : DotDims ⟨2, ![M, K]⟩ ⟨2, ![K, N]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (lhs : FVec Ideal ⟨2, ![M, K]⟩ φ₁) (rhs : FVec Ideal ⟨2, ![K, N]⟩ φ₂) (p : Fin M) (j : Fin N) :
    FloatOps.matmul D prec lhs rhs (constant ⟨2, ![M, N]⟩ .f32 0x00000000#32) (ix2 p j)
      = ∑ k : Fin K, lhs (ix2 p k) * rhs (ix2 k j) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

end Cert.LibPlainMatmul

end
-- ==== Proof.BlockPayload.lean ====
/-
  What the kernel body computes from the blocks it loads, read at one entry.

  At a grid point the body holds a `[5000, 128]` block `sm` of summed features, the matching `[5000, 1]` column `dg` of
  edge counts, the whole weight matrix `w` and the bias `bb`. Its one stored value is, at row `r` and column `j`,

      Σ_k (sm (r, k) / max (dg (r, 0)) 1) · w (k, j) + bb j.

  The column of divisors is broadcast along the row, the quotient and the weights pass through a change of float format
  (the identity on the extended reals) into a matrix product accumulated onto zero, and the bias row is broadcast down
  the rows.
-/
import proofs.«166568_j69045894250720_2_alg».proof.Proof.Gen.KernelIdeal.Skeleton
import proofs.«166568_j69045894250720_2_alg».proof.Proof.LibKeepdims
import proofs.«166568_j69045894250720_2_alg».proof.Proof.LibPlainMatmul
import Idealize.ShloMosaic.Lib.ValueLayout
import Idealize.ShloMosaic.Lib.Pipeline.Value

noncomputable section

namespace Cert.KernelIdeal.BlockPayload

open Cert.KernelIdeal Cert.KernelIdeal.Gen Idealize.ShloMosaic Idealize.ShloMosaic.ValueIdx

/-- The product's dimension numbers contract the left operand's columns with the right operand's rows. -/
theorem dot_l0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem dot_l1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem dot_r0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem dot_r1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The mean of a row entry: the block's quotient, through the change of format, at `(r, k)`. -/
theorem mean_at (dg : FVec Ideal S5000x1 .f32) (sm : FVec Ideal S5000x128 .f32) (r : Fin 5000) (k : Fin 128) :
    (truncf .bf16 (divf (shapeCast S5000x128 sm shapeCasts_S5000x128_S5000x128)
        (broadcastTo S5000x128 (maximumf (shapeCast S5000x1 dg shapeCasts_S5000x1_S5000x1)
          (broadcast S5000x1 (Scalar.ofBits (F := Ideal) .f32 0x3F800000#32))) broadcasts_S5000x1_S5000x128)) bitsLt_bf16_f32
      : FVec Ideal S5000x128 .bf16) (ix2 r k)
      = Ideal.div (sm (ix2 r k)) (max (dg (ix2 r (0 : Fin 1))) (Ideal.ofBits .f32 0x3F800000#32)) := by
  rw [truncf_apply, divf_apply, shapeCast_self, Cert.Keepdims.broadcastTo_a1_ab_apply, maximumf_apply, shapeCast_self,
    broadcast_apply]
  rfl

/-- The bias row broadcast down the rows, at `(r, j)`. -/
theorem bias_at (bb : FVec Ideal S128 .f32) (r : Fin 5000) (j : Fin 128) :
    broadcastTo S5000x128 (shapeCast S1x128 bb shapeCasts_S128_S1x128) broadcasts_S1x128_S5000x128 (ix2 r j) = bb (ix1 j) := by
  rw [broadcastTo_1b_ab_apply, shapeCast_a_1a_apply]

/-- THE BODY'S STORED VALUE at `(r, j)`. -/
theorem pay_at (dg : FVec Ideal S5000x1 .f32) (sm : FVec Ideal S5000x128 .f32) (w : FVec Ideal S128x128 .f32)
    (bb : FVec Ideal S128 .f32) (r : Fin 5000) (j : Fin 128) :
    k0_pay1 (F := Ideal) dg sm w bb (ix2 r j)
      = (∑ k : Fin 128, Ideal.div (sm (ix2 r k)) (max (dg (ix2 r (0 : Fin 1))) (Ideal.ofBits .f32 0x3F800000#32)) * w (ix2 k j))
        + bb (ix1 j) := by
  unfold k0_pay1
  rw [addf_apply, bias_at]
  refine congrArg (· + bb (ix1 j)) ?_
  refine (Cert.LibPlainMatmul.matmul_zero_at dot_S5000x128_S128x128_S5000x128_1_0_0_1_n_n none rfl rfl
    dot_l0 dot_l1 dot_r0 dot_r1 _ _ r j).trans ?_
  refine Finset.sum_congr rfl fun k _ => ?_
  rw [mean_at, truncf_apply]

end Cert.KernelIdeal.BlockPayload

end
-- ==== Proof.HostArrays.lean ====
/-
  The arrays the kernel's grid starts from, as functions of the program's arguments.

  Before the grid runs, the host gathers the source node's feature row for every edge and adds it into the edge's
  destination node (`summed`), and counts each node's incoming edges by adding a one per edge into its destination
  (`degree`); the count is then laid out as a column. The gather reads a copy of the features in a narrower float format
  and widens the rows again: the two format changes stay in the term here and are removed, at the extended reals, where
  the two programs are compared. An edge's source index is first normalised (a negative one is shifted by the number of
  nodes).
-/
import proofs.«166568_j69045894250720_2_alg».proof.Proof.Gen.KernelIdeal.Frame
import Idealize.ShloMosaic.Lib.StableHlo.Run

noncomputable section

namespace Cert.KernelIdeal.HostArrays

open Cert.KernelIdeal Cert.KernelIdeal.Gen Idealize.ShloMosaic Idealize.ShloMosaic.TcCoe Idealize.SL.Sem
open Idealize.ShloMosaic.StableHlo

variable {F : FTy → Type} [FloatOps F]

/-- Per node, the sum of the feature rows of its incoming edges' sources. -/
def summed (x : FVec F S50000x128 .f32) (src dst : IVec S800000 32) : FVec F S50000x128 .f32 :=
  Host.scatterAdd scatter_S50000x128_S800000x1_S800000x128_1_0_0_1
    (broadcastInDim S50000x128 ![] bcast_S_S50000x128 (constant (F := F) S_ .f32 0x00000000#32))
    (broadcastInDim S800000x1 ![0] bcast_S800000_S800000x1_0 dst)
    (extf .f32 (Host.gather gather_S50000x128_S800000x1_S800000x128_1_0_n_n_0_1_1128 (truncf .bf16 x bitsLt_bf16_f32)
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src))) bitsLt_bf16_f32)

/-- Per node, the number of its incoming edges. -/
def degree (dst : IVec S800000 32) : FVec F S50000 .f32 :=
  Host.scatterAdd scatter_S50000_S800000x1_S800000_n_0_0_1
    (broadcastInDim S50000 ![] bcast_S_S50000 (constant (F := F) S_ .f32 0x00000000#32))
    (broadcastInDim S800000x1 ![0] bcast_S800000_S800000x1_0 dst)
    (broadcastInDim S800000 ![] bcast_S_S800000 (constant (F := F) S_ .f32 0x3F800000#32))

variable (m : (ℓ : Loc nD τ sig) → Buf (Elt F) ℓ)

/-- The grid's first operand is `summed` of the arguments. -/
theorem V_summed (c : Dev nD) :
    (V m c main_v11 : S50000x128.Idx → F .f32)
      = summed (m ((c : Thread nD τ).loc main_arg0)) (m ((c : Thread nD τ).loc main_arg1)) (m ((c : Thread nD τ).loc main_arg2)) := by
  dsimp only [V, hostOps0]; after_results; rfl

/-- Its second operand is the column of `degree`. -/
theorem V_degreeColumn (c : Dev nD) :
    (V m c main_v16 : S50000x1.Idx → F .f32)
      = shapeCast S50000x1 (degree (F := F) (m ((c : Thread nD τ).loc main_arg2))) shapeCasts_S50000_S50000x1 := by
  dsimp only [V, hostOps0]; after_results; rfl

end Cert.KernelIdeal.HostArrays

end
-- ==== Proof.MeanLinear.lean ====
/-
  Mean aggregation over incoming edges followed by a dense layer, as ONE function of four arrays.

  `s` holds, per node, the sum of the features its incoming edges carry; `d` the number of those edges (as a
  float). A node's mean is its row of `s` divided by `max (d p) 1` — an isolated node has `d p = 0`, its row of `s` is
  zero, and dividing by `1` leaves it zero. The layer then multiplies the means by `W` and adds the bias `b`: at node `p`
  and output feature `j`,

      out (p, j) = Σ_k (s (p, k) / max (d p) 1) · W (k, j) + b j        (k over the 128 input features).

  Everything is read on the extended reals, where the quotient is `Ideal.div`. The divisor's `1` is kept as the word
  of `1.0`: both programs carry that same word, so it is never evaluated.
-/
import Idealize.ShloMosaic.PureOps.Ideal
import Idealize.ShloMosaic.Lib.ValueIdx

noncomputable section

namespace Cert.MeanLinear

open Idealize.ShloMosaic Idealize.ShloMosaic.ValueIdx

/-- The entry at node `p`, output feature `j`. -/
def entry (s : (⟨2, ![50000, 128]⟩ : Shape).Idx → EReal) (d : (⟨1, ![50000]⟩ : Shape).Idx → EReal)
    (W : (⟨2, ![128, 128]⟩ : Shape).Idx → EReal) (b : (⟨1, ![128]⟩ : Shape).Idx → EReal) (p : Fin 50000) (j : Fin 128) : EReal :=
  (∑ k : Fin 128, Ideal.div (s (ix2 p k)) (max (d (ix1 p)) (Ideal.ofBits .f32 0x3F800000#32)) * W (ix2 k j)) + b (ix1 j)

/-- The whole `[50000, 128]` result. -/
def out (s : (⟨2, ![50000, 128]⟩ : Shape).Idx → EReal) (d : (⟨1, ![50000]⟩ : Shape).Idx → EReal)
    (W : (⟨2, ![128, 128]⟩ : Shape).Idx → EReal) (b : (⟨1, ![128]⟩ : Shape).Idx → EReal) :
    (⟨2, ![50000, 128]⟩ : Shape).Idx → EReal :=
  fun i => entry s d W b (i 0) (i 1)

theorem out_ix2 (s : (⟨2, ![50000, 128]⟩ : Shape).Idx → EReal) (d : (⟨1, ![50000]⟩ : Shape).Idx → EReal)
    (W : (⟨2, ![128, 128]⟩ : Shape).Idx → EReal) (b : (⟨1, ![128]⟩ : Shape).Idx → EReal) (p : Fin 50000) (j : Fin 128) :
    out s d W b (ix2 p j) = entry s d W b p j := rfl

end Cert.MeanLinear

end
-- ==== Proof.KernelArray.lean ====
/-
  The array the grid leaves behind, as one function of the program's arguments.

  The grid has ten points; point `t` handles rows `5000·t … 5000·t + 4999`. There it reads that block of rows of the
  summed features and of the edge-count column, the whole weight matrix and the whole bias, and writes back the same
  block of rows of the result. Row `r` of a block is row `5000·t + r` of the arrays, so what point `t` writes is block `t`
  of ONE whole-array function — a node's mean features times the weights plus the bias —, and the ten blocks tile the
  `50000` rows: the result array ends holding that function everywhere.
-/
import proofs.«166568_j69045894250720_2_alg».proof.Proof.Gen.KernelIdeal.Value
import proofs.«166568_j69045894250720_2_alg».proof.Proof.BlockPayload
import proofs.«166568_j69045894250720_2_alg».proof.Proof.HostArrays
import proofs.«166568_j69045894250720_2_alg».proof.Proof.MeanLinear

set_option maxRecDepth 16384

noncomputable section

namespace Cert.KernelIdeal.KernelArray

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem origin2 : (![0, 0] : Fin 2 → Nat) = fun _ => 0 := funext fun a => by fin_cases a <;> rfl
theorem origin1 : (![0] : Fin 1 → Nat) = fun _ => 0 := funext fun a => by fin_cases a; rfl

/-! ## Where each point's blocks sit -/

/-- The index maps over the ten points: the two row-blocked inputs move with the output's row block, their column block
    is the only one; the weights and the bias are always their one whole block. -/
theorem index_maps : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = 0 ∧ win0_2.index t (1 : Fin 2) = 0
    ∧ win0_3.index t (0 : Fin 1) = 0
    ∧ win0_4.index t (1 : Fin 2) = 0 ∧ win0_4.index t (0 : Fin 2) ≤ 9 :=
  (by decide +kernel : ∀ t : Fin grid0.N, _)

/-- Every one of the ten row blocks is some point's. -/
theorem row_block_onto : ∀ q : Fin 10, ∃ t : Fin cfg0.N, win0_4.index t = ![q.val, 0] :=
  (by decide +kernel : ∀ q : Fin 10, ∃ t : Fin grid0.N, win0_4.index t = ![q.val, 0])

/-! ## The input blocks read where the output's row block says

Each lemma first opens the block into "the array at the embedded index" (the element types agree, so the cast the read
carries is the identity) and then forgets which arrays the grid starts from (they become a variable `A`): what is left is
an equation between two indices, axis by axis. -/

/-- Row `r` of point `t`'s block of summed features is row `P` of the array, `P` the block's first row plus `r`. -/
theorem read_summed (c : Dev nD) (t : Fin cfg0.N) (r : Fin 5000) (k : Fin 128) (P : Fin 50000)
    (hP : P.val = win0_4.index t (0 : Fin 2) * 5000 + r.val) :
    iblk m c 0 t (ix2 r k) = V m c main_v11 (ix2 P k) := by
  obtain ⟨e0, e1, -⟩ := index_maps t
  unfold iblk
  rw [View.read_apply, cast_eq]
  generalize V m c = A
  refine congrArg (A main_v11) (funext fun a => Fin.ext ?_)
  match a with
  | ⟨0, _⟩ => show win0_0.index t (0 : Fin 2) * 5000 + 1 * r.val = P.val; omega
  | ⟨1, _⟩ => show win0_0.index t (1 : Fin 2) * 128 + 1 * k.val = k.val; omega

/-- The same row of the edge-count column. -/
theorem read_degree (c : Dev nD) (t : Fin cfg0.N) (r : Fin 5000) (P : Fin 50000)
    (hP : P.val = win0_4.index t (0 : Fin 2) * 5000 + r.val) :
    iblk m c 1 t (ix2 r (0 : Fin 1)) = V m c main_v16 (ix2 P (0 : Fin 1)) := by
  obtain ⟨-, -, e2, e3, -⟩ := index_maps t
  unfold iblk
  rw [View.read_apply, cast_eq]
  generalize V m c = A
  refine congrArg (A main_v16) (funext fun a => Fin.ext ?_)
  match a with
  | ⟨0, _⟩ => show win0_1.index t (0 : Fin 2) * 5000 + 1 * r.val = P.val; omega
  | ⟨1, _⟩ => show win0_1.index t (1 : Fin 2) * 1 + 1 * 0 = 0; omega

/-- The weights' one block is the whole matrix. -/
theorem read_weights (c : Dev nD) (t : Fin cfg0.N) (k j : Fin 128) :
    iblk m c 2 t (ix2 k j) = V m c main_arg3 (ix2 k j) := by
  obtain ⟨-, -, -, -, e4, e5, -⟩ := index_maps t
  unfold iblk
  rw [View.read_apply, cast_eq]
  generalize V m c = A
  refine congrArg (A main_arg3) (funext fun a => Fin.ext ?_)
  match a with
  | ⟨0, _⟩ => show win0_2.index t (0 : Fin 2) * 128 + 1 * k.val = k.val; omega
  | ⟨1, _⟩ => show win0_2.index t (1 : Fin 2) * 128 + 1 * j.val = j.val; omega

/-- The bias's one block is the whole vector. -/
theorem read_bias (c : Dev nD) (t : Fin cfg0.N) (j : Fin 128) :
    iblk m c 3 t (ix1 j) = V m c main_arg4 (ix1 j) := by
  obtain ⟨-, -, -, -, -, -, e6, -⟩ := index_maps t
  unfold iblk
  rw [View.read_apply, cast_eq]
  generalize V m c = A
  refine congrArg (A main_arg4) (funext fun a => Fin.ext ?_)
  match a with
  | ⟨0, _⟩ => show win0_3.index t (0 : Fin 1) * 128 + 1 * j.val = j.val; omega

/-! ## One point's block -/

/-- WHAT A POINT WRITES BACK, for ANY four loaded blocks that hold the matching rows of whole arrays `s d W b` (the row
    blocks at the output's row block, the weights and the bias whole): block `t` of the whole-array function. Stated over
    variables, so that nothing here depends on what the arrays are. -/
theorem flushed_shape (t : Fin cfg0.N) (x0 : FVec Ideal S5000x128 .f32) (x1 : FVec Ideal S5000x1 .f32)
    (x2 : FVec Ideal S128x128 .f32) (x3 : FVec Ideal S128 .f32)
    (s : S50000x128.Idx → EReal) (d : S50000.Idx → EReal) (W : S128x128.Idx → EReal) (b : S128.Idx → EReal)
    (h0 : ∀ (r : Fin 5000) (k : Fin 128) (P : Fin 50000), P.val = win0_4.index t (0 : Fin 2) * 5000 + r.val →
      x0 (ix2 r k) = s (ix2 P k))
    (h1 : ∀ (r : Fin 5000) (P : Fin 50000), P.val = win0_4.index t (0 : Fin 2) * 5000 + r.val →
      x1 (ix2 r (0 : Fin 1)) = d (ix1 P))
    (h2 : ∀ k j : Fin 128, x2 (ix2 k j) = W (ix2 k j)) (h3 : ∀ j : Fin 128, x3 (ix1 j) = b (ix1 j)) :
    (cfg0.win 4).cut (grid0.coords t) (out0_4 (F := Ideal) x0 x1 x2 x3)
      = ((cfg0.win 4).blk t).view.read (Elt Ideal) (Cert.MeanLinear.out s d W b) := by
  unfold out0_4
  rw [View.canon_unit_zero origin2]
  simp only [View.ld_unit_zero (S := S5000x128) origin2, View.ld_unit_zero (S := S5000x1) origin2,
    View.ld_unit_zero (S := S128x128) origin2, View.ld_unit_zero (S := S128) origin1]
  obtain ⟨-, -, -, -, -, -, -, e7, e8⟩ := index_maps t
  funext y
  have hy0 : (y 0).val < 5000 := (y 0).isLt
  have hy1 : (y 1).val < 128 := (y 1).isLt
  have hP : win0_4.index t (0 : Fin 2) * 5000 + (y 0).val < 50000 := by omega
  have hxy : (cfg0.win 4).xinj (grid0.coords t) y = ix2 (⟨(y 0).val, hy0⟩ : Fin 5000) (⟨(y 1).val, hy1⟩ : Fin 128) :=
    funext fun a => by match a with | ⟨0, _⟩ => rfl | ⟨1, _⟩ => rfl
  have ea : ((cfg0.win 4).blk t).view.emb y 0 = (⟨win0_4.index t (0 : Fin 2) * 5000 + (y 0).val, hP⟩ : Fin 50000) :=
    Fin.ext (by show win0_4.index t (0 : Fin 2) * 5000 + 1 * (y 0).val = win0_4.index t (0 : Fin 2) * 5000 + (y 0).val; omega)
  have eb : ((cfg0.win 4).blk t).view.emb y 1 = (⟨(y 1).val, hy1⟩ : Fin 128) :=
    Fin.ext (by show win0_4.index t (1 : Fin 2) * 128 + 1 * (y 1).val = (y 1).val; omega)
  refine (congrArg (k0_pay1 (F := Ideal) x1 x0 x2 x3) hxy).trans ?_
  rw [BlockPayload.pay_at]
  simp only [h0 ⟨(y 0).val, hy0⟩ _ ⟨win0_4.index t (0 : Fin 2) * 5000 + (y 0).val, hP⟩ rfl,
    h1 ⟨(y 0).val, hy0⟩ ⟨win0_4.index t (0 : Fin 2) * 5000 + (y 0).val, hP⟩ rfl, h2, h3]
  show Cert.MeanLinear.entry s d W b ⟨win0_4.index t (0 : Fin 2) * 5000 + (y 0).val, hP⟩ ⟨(y 1).val, hy1⟩
    = Cert.MeanLinear.entry s d W b (((cfg0.win 4).blk t).view.emb y 0) (((cfg0.win 4).blk t).view.emb y 1)
  exact congrArg₂ (Cert.MeanLinear.entry s d W b) ea.symm eb.symm

/-- The edge count of node `p` is the column's entry at `(p, 0)`. -/
abbrev countOf (col : S50000x1.Idx → EReal) : S50000.Idx → EReal := fun i => col (ix2 (i 0) (0 : Fin 1))

/-- WHAT POINT `t` WRITES BACK is block `t` of the whole-array function of the arrays the grid starts from. -/
theorem flushed_eq (c : Dev nD) (t : Fin cfg0.N) :
    (dats m 0 c).flushed 4 t = ((cfg0.win 4).blk t).view.read (Elt Ideal)
      (Cert.MeanLinear.out (V m c main_v11) (countOf (V m c main_v16)) (V m c main_arg3) (V m c main_arg4)) := by
  rw [flushed4]
  exact flushed_shape t (iblk m c 0 t) (iblk m c 1 t) (iblk m c 2 t) (iblk m c 3 t) (V m c main_v11)
    (countOf (V m c main_v16)) (V m c main_arg3) (V m c main_arg4)
    (fun r k P hP => read_summed m c t r k P hP) (fun r P hP => read_degree m c t r P hP)
    (fun k j => read_weights m c t k j) (fun j => read_bias m c t j)

/-! ## The ten blocks tile the rows -/

/-- An index of the array is in point `t`'s block iff each coordinate is in the block's range on its axis. -/
theorem mem_block (t : Fin cfg0.N) (i : S50000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v17).slice (win0_4.rect t)).set ↔ _
  rw [View.set_slice_whole, Rect.mem_set_unit]
  exact Iff.rfl

/-- Row `p` is in the block of the point whose row block is `p / 5000`. -/
theorem covered (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  obtain ⟨t, ht⟩ := row_block_onto ⟨(i 0).val / 5000, by omega⟩
  have q0 : win0_4.index t (0 : Fin 2) = (i 0).val / 5000 := congrFun ht 0
  have q1 : win0_4.index t (1 : Fin 2) = 0 := congrFun ht 1
  refine ⟨t, flush0_4 t, ?_⟩
  rw [mem_block]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega

/-- THE RESULT ARRAY after the grid, over the arrays the grid starts from. -/
theorem final (c : Dev nD) : (dats m 0 c).arrAt 4 cfg0.N
    = Cert.MeanLinear.out (V m c main_v11) (countOf (V m c main_v16)) (V m c main_arg3) (V m c main_arg4) :=
  (dats m 0 c).arrAt_eq_of_cover 4
    (Cert.MeanLinear.out (V m c main_v11) (countOf (V m c main_v16)) (V m c main_arg3) (V m c main_arg4))
    (fun t _ => flushed_eq m c t) covered

/-! ## Over the program's arguments -/

/-- The column the grid reads the counts from is the count vector laid out as a column. -/
theorem count_eq (c : Dev nD) :
    countOf (V m c main_v16) = HostArrays.degree (F := Ideal) (m ((c : Thread nD τ).loc main_arg2)) := by
  rw [HostArrays.V_degreeColumn]
  generalize HostArrays.degree (F := Ideal) (m ((c : Thread nD τ).loc main_arg2)) = D
  funext i
  obtain ⟨p, rfl⟩ : ∃ p : Fin 50000, i = ix1 p := ⟨i 0, eq_ix1 i⟩
  exact Cert.Keepdims.shapeCast_a_a1_apply D _ p 0

/-- THE RESULT ARRAY after the grid, over the arguments. -/
theorem final_args (c : Dev nD) : (dats m 0 c).arrAt 4 cfg0.N
    = Cert.MeanLinear.out
        (HostArrays.summed (F := Ideal) (m ((c : Thread nD τ).loc main_arg0)) (m ((c : Thread nD τ).loc main_arg1)) (m ((c : Thread nD τ).loc main_arg2)))
        (HostArrays.degree (F := Ideal) (m ((c : Thread nD τ).loc main_arg2)))
        (m ((c : Thread nD τ).loc main_arg3)) (m ((c : Thread nD τ).loc main_arg4)) := by
  rw [final, count_eq, HostArrays.V_summed, V_main_arg3, V_main_arg4]

/-- The kernel's run: the result at the whole-array function of the arguments, the arguments unchanged. -/
theorem run : θ_run defs (onTc (τ := τ) (main (F := Ideal))) ⟨m, fun _ => 0, ρ⟩ fun r => ∀ c : Dev nD,
      r.2.mem ((c : Thread nD τ).loc main_v17)
        = Cert.MeanLinear.out
            (HostArrays.summed (F := Ideal) (m ((c : Thread nD τ).loc main_arg0)) (m ((c : Thread nD τ).loc main_arg1)) (m ((c : Thread nD τ).loc main_arg2)))
            (HostArrays.degree (F := Ideal) (m ((c : Thread nD τ).loc main_arg2)))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_args m c), (h c).2⟩) (run_blocks m ρ)

end Cert.KernelIdeal.KernelArray

end
-- ==== Proof.ReferenceArray.lean ====
/-
  The reference's result, read entry by entry, is the mean-then-linear function of its own aggregates.

  The reference divides the summed features by the edge count raised to at least one — the count first compared with
  one as a vector, then laid out as a column and broadcast along the rows —, multiplies by the weights and adds the bias
  row broadcast down the rows. Read at `(p, j)` every layout step only renames the index: the divisor at `(p, k)` is
  `max (deg p) 1`, the bias at `(p, j)` is `b j`, and the product is the sum over the 128 input features.
-/
import proofs.«166568_j69045894250720_2_alg».proof.Proof.Gen.ReferenceIdeal.Read
import proofs.«166568_j69045894250720_2_alg».proof.Proof.MeanLinear

noncomputable section

namespace Cert.ReferenceIdeal.RefValue

open Cert.ReferenceIdeal Cert.ReferenceIdeal.Read Idealize.ShloMosaic Idealize.ShloMosaic.ValueIdx

/-- The product's left operand index at `(p, j)`, contraction coordinate `k`, is `(p, k)`. -/
theorem left_idx (p : Fin 50000) (j k : Fin 128) : lidx_main_v19 (ix2 p j) k = ix2 p k :=
  funext fun a => Fin.ext (by match a with | ⟨0, _⟩ => rfl | ⟨1, _⟩ => rfl)
/-- and its right operand index is `(k, j)`. -/
theorem right_idx (p : Fin 50000) (j k : Fin 128) : ridx_main_v19 (ix2 p j) k = ix2 k j :=
  funext fun a => Fin.ext (by match a with | ⟨0, _⟩ => rfl | ⟨1, _⟩ => rfl)
/-- The divisor's column broadcast along the row reads the column at `(p, 0)`, -/
theorem column_idx (p : Fin 50000) (k : Fin 128) : idx_main_v17 (ix2 p k) = ix2 p (0 : Fin 1) :=
  funext fun a => Fin.ext (by match a with | ⟨0, _⟩ => rfl | ⟨1, _⟩ => rfl)
/-- which is the vector at `p`. -/
theorem vector_idx (p : Fin 50000) : idx_main_v16 (ix2 p (0 : Fin 1)) = ix1 p :=
  funext fun a => Fin.ext (by match a with | ⟨0, _⟩ => rfl)
/-- The bias row broadcast down the rows reads the bias at `j`. -/
theorem bias_idx (p : Fin 50000) (j : Fin 128) : idx_main_v20 (idx_main_v21 (ix2 p j)) = ix1 j :=
  funext fun a => Fin.ext (by match a with | ⟨0, _⟩ => rfl)

/-- THE REFERENCE'S RESULT is `MeanLinear.out` of its summed features, its edge counts, the weights and the bias. -/
theorem result_eq (x0 : (⟨S50000x128, .f32⟩ : BufTy).Contents (Elt Ideal)) (x1 x2 : (⟨S800000, .i32⟩ : BufTy).Contents (Elt Ideal))
    (x3 : (⟨S128x128, .f32⟩ : BufTy).Contents (Elt Ideal)) (x4 : (⟨S128, .f32⟩ : BufTy).Contents (Elt Ideal)) :
    val_main_v22 (F := Ideal) x0 x1 x2 x3 x4
      = Cert.MeanLinear.out (val_main_v9 (F := Ideal) x0 x1 x2) (val_main_v13 (F := Ideal) x2) x3 x4 := by
  funext i
  obtain ⟨p, j, rfl⟩ : ∃ (p : Fin 50000) (j : Fin 128), i = ix2 p j := ⟨i 0, i 1, eq_ix2 i⟩
  rw [Cert.MeanLinear.out_ix2, val_main_v22_apply, val_main_v19_apply, val_main_v21_apply, val_main_v20_apply, bias_idx,
    Ideal.addf_def]
  unfold Cert.MeanLinear.entry
  refine congrArg (· + x4 (ix1 j)) (Finset.sum_congr rfl fun k _ => ?_)
  rw [left_idx, right_idx, val_main_v18_apply, val_main_v17_apply, column_idx, val_main_v16_apply, vector_idx,
    val_main_v15_apply, val_main_v14_apply, val_main_cst_3_apply, Ideal.hostDivf_def, Ideal.maximumf_def, Ideal.ofBits_def]

end Cert.ReferenceIdeal.RefValue

end
-- ==== Proof.SameAggregates.lean ====
/-
  Both programs aggregate the same way: the summed features and the edge counts the kernel's host part computes are the
  arrays the reference computes at those stages.

  The edge counts are literally the same scatter-add of ones. The summed features differ only in that the kernel's
  program gathers from a copy of the features in a narrower float format and widens the gathered rows again; on the
  extended reals a change of float format is the identity, so the gather reads the same numbers and the scatter-add
  adds the same numbers.
-/
import proofs.«166568_j69045894250720_2_alg».proof.Proof.HostArrays
import proofs.«166568_j69045894250720_2_alg».proof.Proof.Gen.ReferenceIdeal.Read

noncomputable section

namespace Cert.SameAggregates

open Idealize.ShloMosaic

/-- Widening a vector's float format is the identity on the extended reals. -/
theorem widen_id {s : Shape} (v : FVec Ideal s .bf16) (h : FTy.bits .bf16 < FTy.bits .f32) :
    (extf .f32 v h : FVec Ideal s .f32) = v := rfl

/-- Narrowing it is too. -/
theorem narrow_id {s : Shape} (v : FVec Ideal s .f32) (h : FTy.bits .bf16 < FTy.bits .f32) :
    (truncf .bf16 v h : FVec Ideal s .bf16) = v := rfl

/-- The edge counts. -/
theorem degree_eq (dst : IVec ⟨1, ![800000]⟩ 32) :
    Cert.KernelIdeal.HostArrays.degree (F := Ideal) dst = Cert.ReferenceIdeal.Read.val_main_v13 (F := Ideal) dst := by
  unfold Cert.KernelIdeal.HostArrays.degree Cert.ReferenceIdeal.Read.val_main_v13 Cert.ReferenceIdeal.Read.val_main_v12
    Cert.ReferenceIdeal.Read.val_main_v11 Cert.ReferenceIdeal.Read.val_main_v10 Cert.ReferenceIdeal.Read.val_main_cst_2
    Cert.ReferenceIdeal.Read.val_main_cst_1
  rfl

/-- The summed features. -/
theorem summed_eq (x : FVec Ideal ⟨2, ![50000, 128]⟩ .f32) (src dst : IVec ⟨1, ![800000]⟩ 32) :
    Cert.KernelIdeal.HostArrays.summed (F := Ideal) x src dst = Cert.ReferenceIdeal.Read.val_main_v9 (F := Ideal) x src dst := by
  unfold Cert.KernelIdeal.HostArrays.summed Cert.ReferenceIdeal.Read.val_main_v9 Cert.ReferenceIdeal.Read.val_main_v8
    Cert.ReferenceIdeal.Read.val_main_v7 Cert.ReferenceIdeal.Read.val_main_v6 Cert.ReferenceIdeal.Read.val_main_v5
    Cert.ReferenceIdeal.Read.val_main_v4 Cert.ReferenceIdeal.Read.val_main_v3 Cert.ReferenceIdeal.Read.val_main_v2
    Cert.ReferenceIdeal.Read.val_main_v1 Cert.ReferenceIdeal.Read.val_main_v0 Cert.ReferenceIdeal.Read.val_main_c_0
    Cert.ReferenceIdeal.Read.val_main_c Cert.ReferenceIdeal.Read.val_main_cst
  rw [widen_id, narrow_id]
  rfl

end Cert.SameAggregates

end
-- ==== Proof.lean ====
/-
  Node-mean aggregation and a dense layer: the kernel's program and the reference compute the same array.

  Both programs first form, for every node, the sum of the feature rows of its incoming edges' sources and the number of
  those edges, by the same gather and the same two scatter-adds of the same arguments (the kernel's program reads the
  features through a narrower float format and back, which is the identity on the extended reals). The reference then
  divides each node's row by `max (count, 1)`, multiplies by the weights and adds the bias, all as whole-array operations.
  The kernel does the same arithmetic in ten blocks of 5000 rows: the divisor column broadcast along the row, the quotient
  times the weights as a matrix product accumulated onto zero, the bias row added. A block's row `r` at grid point `t` is row
  `5000·t + r` of the arrays, and the ten blocks tile the rows, so the result array is, entry by entry,

      Σ_k (summed (p, k) / max (count p) 1) · W (k, j) + b j

  — the function `MeanLinear.out` — which is also what the reference's result reads at `(p, j)`. No law beyond "the same
  operations on the same numbers" joins the two sides, so the inputs' finiteness is never used. The idealization rewrote
  nothing, so the kernel's idealized program is its own text read on the extended reals.
-/
import proofs.«166568_j69045894250720_2_alg».proof.Defs
import proofs.«166568_j69045894250720_2_alg».proof.Proof.Gen.Kernel
import proofs.«166568_j69045894250720_2_alg».proof.Proof.Gen.Kernel.Skeleton
import proofs.«166568_j69045894250720_2_alg».proof.Proof.Gen.Kernel.Launch
import proofs.«166568_j69045894250720_2_alg».proof.Proof.Gen.Kernel.Points
import proofs.«166568_j69045894250720_2_alg».proof.Proof.Gen.Kernel.Frame
import proofs.«166568_j69045894250720_2_alg».proof.Proof.Gen.KernelIdeal
import proofs.«166568_j69045894250720_2_alg».proof.Proof.Gen.KernelIdeal.Skeleton
import proofs.«166568_j69045894250720_2_alg».proof.Proof.Gen.KernelIdeal.Launch
import proofs.«166568_j69045894250720_2_alg».proof.Proof.Gen.KernelIdeal.Points
import proofs.«166568_j69045894250720_2_alg».proof.Proof.Gen.KernelIdeal.Frame
import proofs.«166568_j69045894250720_2_alg».proof.Proof.Gen.ReferenceIdeal
import proofs.«166568_j69045894250720_2_alg».proof.Proof.Gen.Pre_finite_inputs
import proofs.«166568_j69045894250720_2_alg».proof.Proof.Gen.KernelIdeal.Value
import proofs.«166568_j69045894250720_2_alg».proof.Proof.Gen.ReferenceIdeal.Run
import proofs.«166568_j69045894250720_2_alg».proof.Proof.Gen.ReferenceIdeal.Read
import proofs.«166568_j69045894250720_2_alg».proof.Proof.KernelArray
import proofs.«166568_j69045894250720_2_alg».proof.Proof.ReferenceArray
import proofs.«166568_j69045894250720_2_alg».proof.Proof.SameAggregates
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the result at `MeanLinear.out` of the same summed
    features, edge counts, weights and bias. -/
theorem algebraic : Cert.algebraic_KernelIdeal_ReferenceIdeal := by
  intro m ρ m' ρ' _ hagree
  refine ⟨_, Cert.KernelIdeal.KernelArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.RefValue.result_eq, (hagree c).1, (hagree c).2.1,
    (hagree c).2.2.1, (hagree c).2.2.2.1, (hagree c).2.2.2.2, ← Cert.SameAggregates.summed_eq,
    ← Cert.SameAggregates.degree_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
